-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg9 : FVec F S16x16 .f32) (main_arg10 : FVec F S16 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128 .f32) (main_arg7 : FVec F S128x16 .f32) (main_arg8 : FVec F S16 .f32) (main_arg9 : FVec F S16x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x16 .f32) (main_arg8 : FVec F S16 .f32) (main_arg9 : FVec F S16x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 106
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x16, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x16, .f32⟩
  | .hbm, ⟨95, _⟩ => ⟨S1700000x1, .f32⟩
  | .hbm, ⟨96, _⟩ => ⟨S1700000x16, .f32⟩
  | .hbm, ⟨97, _⟩ => ⟨S1700000x16, .f32⟩
  | .hbm, ⟨98, _⟩ => ⟨S_, .f32⟩
  | .hbm, ⟨99, _⟩ => ⟨S100000x16, .f32⟩
  | .hbm, ⟨100, _⟩ => ⟨S1700000x1, .i32⟩
  | .hbm, ⟨101, _⟩ => ⟨S100000x16, .f32⟩
  | .hbm, ⟨102, _⟩ => ⟨S1x16, .f32⟩
  | .hbm, ⟨103, _⟩ => ⟨S100000x16, .f32⟩
  | .hbm, ⟨104, _⟩ => ⟨S1x16, .f32⟩
  | .hbm, ⟨105, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S16x16, .f32⟩
  | .local _ .vmem, ⟨33, _⟩ => ⟨S1x16, .f32⟩
  | .local _ .vmem, ⟨34, _⟩ => ⟨S5000x16, .f32⟩
  | .local _ .vmem, ⟨35, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S100000x16.size a
  hwx6_0 : ∀ i : grid6.Coords, EltTy.bits .f32 = 32 ∨ (Rect.block (s := S100000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x16.size a ≤ S16x16.size a
  hwx6_1 : ∀ i : grid6.Coords, EltTy.bits .f32 = 32 ∨ (Rect.block (s := S16x16) S16x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S16x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x16 : Shape := ⟨2, ![16, 16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S100000x16, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x16, .f32⟩
  | .hbm, ⟨103, _⟩ => ⟨S1700000x1, .f32⟩
  | .hbm, ⟨104, _⟩ => ⟨S1700000x16, .f32⟩
  | .hbm, ⟨105, _⟩ => ⟨S1700000x16, .f32⟩
  | .hbm, ⟨106, _⟩ => ⟨S_, .f32⟩
  | .hbm, ⟨107, _⟩ => ⟨S100000x16, .f32⟩
  | .hbm, ⟨108, _⟩ => ⟨S1700000x1, .i32⟩
  | .hbm, ⟨109, _⟩ => ⟨S100000x16, .f32⟩
  | .hbm, ⟨110, _⟩ => ⟨S1x16, .f32⟩
  | .hbm, ⟨111, _⟩ => ⟨S100000x16, .f32⟩
  | .hbm, ⟨112, _⟩ => ⟨S100000x16, .f32⟩
  | .hbm, ⟨113, _⟩ => ⟨S100000x16, .f32⟩
  | .hbm, ⟨114, _⟩ => ⟨S1x16, .f32⟩
  | .hbm, ⟨115, _⟩ => ⟨S100000x16, .f32⟩
  | .hbm, ⟨116, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x16_S100000x16_1_0_0_1_n_n_wf : DotDims.WF S100000x16 S16x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel's run with its result named. The program is seven launches among stretches of host operations;
  the buffer contents at each boundary are a fold from the launch memory, and the last boundary's contents hold every
  unscoped buffer of the final state. So the result array ends at the last boundary's contents of its buffer, and each
  argument as launched.
-/
import proofs.«148061_j1898375544951_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the arguments as launched. -/
theorem run : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.HandRun

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.Spec.lean ====
/-
  The three dense steps of a graph-convolution stack, as functions of whole arrays of extended reals, index by index:
  the product of an M x K array with a K x N array (the sum over the K inner positions), a row vector added to every
  row of an array, and the maximum of every entry with zero.
-/
import Idealize.ShloMosaic.PureOps.Ideal
import Idealize.ShloMosaic.Lib.ValueIdx

noncomputable section

open scoped BigOperators

namespace Cert.Gcn

open Idealize.ShloMosaic Idealize.ShloMosaic.ValueIdx

/-- The product of an M x K array with a K x N array: entry (r, c) is the sum over k of x (r, k) * w (k, c). -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0 : Fin M) k) * w (ix2 k (i 1 : Fin N))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- A vector of N entries added to every row of an M x N array. -/
def addRow {M N : ℕ} (x : (⟨2, ![M, N]⟩ : Shape).Idx → EReal) (b : (⟨1, ![N]⟩ : Shape).Idx → EReal) :
    (⟨2, ![M, N]⟩ : Shape).Idx → EReal :=
  fun i => x i + b (ix1 (i 1 : Fin N))

theorem addRow_apply {M N : ℕ} (x : (⟨2, ![M, N]⟩ : Shape).Idx → EReal) (b : (⟨1, ![N]⟩ : Shape).Idx → EReal)
    (r : Fin M) (c : Fin N) : addRow x b (ix2 r c) = x (ix2 r c) + b (ix1 c) := rfl

/-- The same with the vector kept as a 1 x N array, as a launch takes it. -/
def addRow1 {M N : ℕ} (x : (⟨2, ![M, N]⟩ : Shape).Idx → EReal) (b : (⟨2, ![1, N]⟩ : Shape).Idx → EReal) :
    (⟨2, ![M, N]⟩ : Shape).Idx → EReal :=
  fun i => x i + b (ix2 (0 : Fin 1) (i 1 : Fin N))

/-- A vector read as a 1 x N array adds to the rows as the vector does. -/
theorem addRow1_eq {M N : ℕ} (x : (⟨2, ![M, N]⟩ : Shape).Idx → EReal) (b : (⟨1, ![N]⟩ : Shape).Idx → EReal)
    (b2 : (⟨2, ![1, N]⟩ : Shape).Idx → EReal) (h : ∀ q : Fin N, b2 (ix2 (0 : Fin 1) q) = b (ix1 q)) :
    addRow1 x b2 = addRow x b := by
  funext i
  exact congrArg (fun z => x i + z) (h (i 1 : Fin N))

/-- Every entry of an array replaced by its maximum with the zero of the 32-bit float format. -/
def relu {M N : ℕ} (x : (⟨2, ![M, N]⟩ : Shape).Idx → EReal) : (⟨2, ![M, N]⟩ : Shape).Idx → EReal :=
  fun i => max (x i) (Ideal.ofBits .f32 0x00000000#32)

theorem relu_apply {M N : ℕ} (x : (⟨2, ![M, N]⟩ : Shape).Idx → EReal) (i : (⟨2, ![M, N]⟩ : Shape).Idx) :
    relu x i = max (x i) (Ideal.ofBits .f32 0x00000000#32) := rfl

end Cert.Gcn

end
-- ==== Proof.Region0.lean ====
/-
  Region 0: a row-tiled matrix product. The 100000 x 128 array is cut into 20 blocks of 5000 rows; at each block
  the body multiplies the block by the whole 128 x 128 array (after a change of float format, which is the identity
  on extended reals) into a zero accumulator and stores the 5000 x 128 result as the block of the output array. The
  blocks tile the output, so the output array ends as the product of the two arrays the region finds at its entry.
-/
import proofs.«148061_j1898375544951_1_alg».proof.Proof.Gen.KernelIdeal.Frame
import proofs.«148061_j1898375544951_1_alg».proof.Proof.LibDotIx2
import proofs.«148061_j1898375544951_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain 5000 x 128 by 128 x 128 product. -/
theorem plainDot : PlainDot (M := 5000) (K := 128) (N := 128) dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- What the body stores, at row p and column q: the sum over k of the row block's (p, k) times the right array's (k, q). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1

  exact matmul_zero_ix2_any plainDot none _ _ p q

theorem pay_at (x0 : Vec Ideal S5000x128 .f32) (x1 : Vec Ideal S128x128 .f32) (j : S5000x128.Idx) :
    k0_pay1 x0 x1 j = ∑ k : Fin 128, x0 (ix2 (j 0 : Fin 5000) k) * x1 (ix2 k (j 1 : Fin 128)) := by
  exact (congrArg (k0_pay1 x0 x1) (eq_ix2 j)).trans (pay_apply x0 x1 (j 0) (j 1))

/-- The printed index maps over the grid: the row blocks of the left array and of the output move with the point,
    the right array is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t = ((cfg0.win 2).blk t).view.read (Elt Ideal)
      (mm (M := 100000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay_at (iblk0 V c 0 t) (iblk0 V c 1 t) j).trans ?_
  rw [View.read_apply]
  unfold mm
  refine Finset.sum_congr rfl fun k _ => ?_
  have hj0 : (j 0).val < 5000 := (j 0).isLt
  have hj1 : (j 1).val < 128 := (j 1).isLt
  have hk : k.val < 128 := k.isLt
  refine congrArg₂ (· * ·) ?_ ?_
  ·
    show V c main_arg0 (((cfg0.win 0).blk t).view.emb (ix2 (j 0 : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  ·
    show V c main_arg3 (((cfg0.win 1).blk t).view.emb (ix2 k (j 1 : Fin 128))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row of the output lies in the block of the point numbered by the row divided by 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  rw [mem_blk]
  obtain ⟨e0, e1, e2, e3, e4, e5⟩ := idx_facts ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region: the product of the two arrays the region finds at its entry. -/
theorem arr_out (c : Dev nD) :
    (dat0 V c).arrAt 2 cfg0.N = mm (M := 100000) (K := 128) (N := 128) (V c main_arg0) (V c main_arg3) :=
  (dat0 V c).arrAt_eq_of_cover 2 _ (fun t _ => flushed_eq V c t) cover

end Cert.KernelIdeal.Hand0

end
-- ==== Proof.Region1.lean ====
/-
  Region 1: a row vector added to every row, then the maximum with zero. The 100000 x 128 array is cut into 20 blocks of
  5000 rows; at each block the body adds the 1 x 128 array (broadcast along the rows) to the block, takes the maximum of every entry with zero, and
  stores the result as the block of the output array. The blocks tile the output, so the output array ends as that
  function of the two arrays the region finds at its entry.
-/
import proofs.«148061_j1898375544951_1_alg».proof.Proof.Gen.KernelIdeal.Frame
import proofs.«148061_j1898375544951_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at row p and column q: the block's entry plus the row array's entry of that column, or zero if that is larger. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self]
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (fun a => by
      match a with
      | ⟨0, _⟩ => rfl
      | ⟨1, _⟩ => rfl)
  show max (x0 (ix2 p q) + broadcastTo S5000x128 x1 broadcasts_S1x128_S5000x128 (ix2 p q)) _ = _
  rw [hb]
  rfl

theorem pay_at (x0 : Vec Ideal S5000x128 .f32) (x1 : Vec Ideal S1x128 .f32) (j : S5000x128.Idx) :
    k1_pay1 x0 x1 j = max (x0 j + x1 (ix2 (0 : Fin 1) (j 1 : Fin 128))) (Ideal.ofBits .f32 0x00000000#32) := by
  refine (congrArg (k1_pay1 x0 x1) (eq_ix2 j)).trans ((pay_apply x0 x1 (j 0) (j 1)).trans ?_)
  exact congrArg (fun y => max (x0 y + x1 (ix2 (0 : Fin 1) (j 1 : Fin 128))) (Ideal.ofBits .f32 0x00000000#32)) (eq_ix2 j).symm

/-- The printed index maps over the grid: the row blocks of the input and of the output move with the point, the row
    array is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the two arrays as the region finds them. -/
theorem flushed_eq (c : Dev nD) (t : Fin cfg1.N) :
    (dat1 V c).flushed 2 t = ((cfg1.win 2).blk t).view.read (Elt Ideal)
      (relu (addRow1 (M := 100000) (N := 128) (V c main_v42) (V c main_v43))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  refine (pay_at (iblk1 V c 0 t) (iblk1 V c 1 t) j).trans ?_
  rw [View.read_apply]
  unfold relu addRow1
  have hj0 : (j 0).val < 5000 := (j 0).isLt
  have hj1 : (j 1).val < 128 := (j 1).isLt
  refine congrArg₂ max (congrArg₂ (· + ·) ?_ ?_) rfl
  · show V c main_v42 (((cfg1.win 0).blk t).view.emb j) = _
    refine congrArg (V c main_v42) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v43 (((cfg1.win 1).blk t).view.emb (ix2 (0 : Fin 1) (j 1 : Fin 128))) = _
    refine congrArg (V c main_v43) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every row of the output lies in the block of the point numbered by the row divided by 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_2 _, ?_⟩
  rw [mem_blk]
  obtain ⟨e0, e1, e2, e3, e4, e5⟩ := idx_facts ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The output array after the region, as one function of the two arrays the region finds at its entry. -/
theorem arr_out (c : Dev nD) :
    (dat1 V c).arrAt 2 cfg1.N = relu (addRow1 (M := 100000) (N := 128) (V c main_v42) (V c main_v43)) :=
  (dat1 V c).arrAt_eq_of_cover 2 _ (fun t _ => flushed_eq V c t) cover

end Cert.KernelIdeal.Hand1

end
-- ==== Proof.Region2.lean ====
/-
  Region 2: a row-tiled matrix product. The 100000 x 128 array is cut into 20 blocks of 5000 rows; at each block
  the body multiplies the block by the whole 128 x 128 array (after a change of float format, which is the identity
  on extended reals) into a zero accumulator and stores the 5000 x 128 result as the block of the output array. The
  blocks tile the output, so the output array ends as the product of the two arrays the region finds at its entry.
-/
import proofs.«148061_j1898375544951_1_alg».proof.Proof.Gen.KernelIdeal.Frame
import proofs.«148061_j1898375544951_1_alg».proof.Proof.LibDotIx2
import proofs.«148061_j1898375544951_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain 5000 x 128 by 128 x 128 product. -/
theorem plainDot : PlainDot (M := 5000) (K := 128) (N := 128) dot_S5000x128_S128x128_S5000x128_1_0_0_1_n_n where
  rank := rfl
  size := rfl
  l0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  l1 := fun j q => dot_S5000x128_S128x128_S5000x128_1_0_0_1_n_n.lhsIdx_val_of_single rfl j q
  r0 := fun j q => dot_S5000x128_S128x128_S5000x128_1_0_0_1_n_n.rhsIdx_val_of_single rfl j q
  r1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- What the body stores, at row p and column q: the sum over k of the row block's (p, k) times the right array's (k, q). -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  rw [shapeCast_self]
  exact matmul_zero_ix2_any plainDot none _ _ p q

theorem pay_at (x0 : Vec Ideal S5000x128 .f32) (x1 : Vec Ideal S128x128 .f32) (j : S5000x128.Idx) :
    k2_pay1 x0 x1 j = ∑ k : Fin 128, x0 (ix2 (j 0 : Fin 5000) k) * x1 (ix2 k (j 1 : Fin 128)) := by
  exact (congrArg (k2_pay1 x0 x1) (eq_ix2 j)).trans (pay_apply x0 x1 (j 0) (j 1))

/-- The printed index maps over the grid: the row blocks of the left array and of the output move with the point,
    the right array is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed_eq (c : Dev nD) (t : Fin cfg2.N) :
    (dat2 V c).flushed 2 t = ((cfg2.win 2).blk t).view.read (Elt Ideal)
      (mm (M := 100000) (K := 128) (N := 128) (V c main_v44) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine (pay_at (iblk2 V c 0 t) (iblk2 V c 1 t) j).trans ?_
  rw [View.read_apply]
  unfold mm
  refine Finset.sum_congr rfl fun k _ => ?_
  have hj0 : (j 0).val < 5000 := (j 0).isLt
  have hj1 : (j 1).val < 128 := (j 1).isLt
  have hk : k.val < 128 := k.isLt
  refine congrArg₂ (· * ·) ?_ ?_
  ·
    show V c main_v44 (((cfg2.win 0).blk t).view.emb (ix2 (j 0 : Fin 5000) k)) = _
    refine congrArg (V c main_v44) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  ·
    show V c main_arg5 (((cfg2.win 1).blk t).view.emb (ix2 k (j 1 : Fin 128))) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every row of the output lies in the block of the point numbered by the row divided by 5000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_2 _, ?_⟩
  rw [mem_blk]
  obtain ⟨e0, e1, e2, e3, e4, e5⟩ := idx_facts ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- The output array after the region: the product of the two arrays the region finds at its entry. -/
theorem arr_out (c : Dev nD) :
    (dat2 V c).arrAt 2 cfg2.N = mm (M := 100000) (K := 128) (N := 128) (V c main_v44) (V c main_arg5) :=
  (dat2 V c).arrAt_eq_of_cover 2 _ (fun t _ => flushed_eq V c t) cover

end Cert.KernelIdeal.Hand2

end
-- ==== Proof.Region3.lean ====
/-
  Region 3: a row vector added to every row, then the maximum with zero. The 100000 x 128 array is cut into 20 blocks of
  5000 rows; at each block the body adds the 1 x 128 array (broadcast along the rows) to the block, takes the maximum of every entry with zero, and
  stores the result as the block of the output array. The blocks tile the output, so the output array ends as that
  function of the two arrays the region finds at its entry.
-/
import proofs.«148061_j1898375544951_1_alg».proof.Proof.Gen.KernelIdeal.Frame
import proofs.«148061_j1898375544951_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at row p and column q: the block's entry plus the row array's entry of that column, or zero if that is larger. -/
theorem pay_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  unfold k3_pay1
  rw [shapeCast_self, shapeCast_self]
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (fun a => by
      match a with
      | ⟨0, _⟩ => rfl
      | ⟨1, _⟩ => rfl)
  show max (x0 (ix2 p q) + broadcastTo S5000x128 x1 broadcasts_S1x128_S5000x128 (ix2 p q)) _ = _
  rw [hb]
  rfl

theorem pay_at (x0 : Vec Ideal S5000x128 .f32) (x1 : Vec Ideal S1x128 .f32) (j : S5000x128.Idx) :
    k3_pay1 x0 x1 j = max (x0 j + x1 (ix2 (0 : Fin 1) (j 1 : Fin 128))) (Ideal.ofBits .f32 0x00000000#32) := by
  refine (congrArg (k3_pay1 x0 x1) (eq_ix2 j)).trans ((pay_apply x0 x1 (j 0) (j 1)).trans ?_)
  exact congrArg (fun y => max (x0 y + x1 (ix2 (0 : Fin 1) (j 1 : Fin 128))) (Ideal.ofBits .f32 0x00000000#32)) (eq_ix2 j).symm

/-- The printed index maps over the grid: the row blocks of the input and of the output move with the point, the row
    array is one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the two arrays as the region finds them. -/
theorem flushed_eq (c : Dev nD) (t : Fin cfg3.N) :
    (dat3 V c).flushed 2 t = ((cfg3.win 2).blk t).view.read (Elt Ideal)
      (relu (addRow1 (M := 100000) (N := 128) (V c main_v58) (V c main_v59))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  refine (pay_at (iblk3 V c 0 t) (iblk3 V c 1 t) j).trans ?_
  rw [View.read_apply]
  unfold relu addRow1
  have hj0 : (j 0).val < 5000 := (j 0).isLt
  have hj1 : (j 1).val < 128 := (j 1).isLt
  refine congrArg₂ max (congrArg₂ (· + ·) ?_ ?_) rfl
  · show V c main_v58 (((cfg3.win 0).blk t).view.emb j) = _
    refine congrArg (V c main_v58) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v59 (((cfg3.win 1).blk t).view.emb (ix2 (0 : Fin 1) (j 1 : Fin 128))) = _
    refine congrArg (V c main_v59) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Every row of the output lies in the block of the point numbered by the row divided by 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_2 _, ?_⟩
  rw [mem_blk]
  obtain ⟨e0, e1, e2, e3, e4, e5⟩ := idx_facts ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- The output array after the region, as one function of the two arrays the region finds at its entry. -/
theorem arr_out (c : Dev nD) :
    (dat3 V c).arrAt 2 cfg3.N = relu (addRow1 (M := 100000) (N := 128) (V c main_v58) (V c main_v59)) :=
  (dat3 V c).arrAt_eq_of_cover 2 _ (fun t _ => flushed_eq V c t) cover

end Cert.KernelIdeal.Hand3

end
-- ==== Proof.Region4.lean ====
/-
  Region 4: a row-tiled matrix product. The 100000 x 128 array is cut into 20 blocks of 5000 rows; at each block
  the body multiplies the block by the whole 128 x 16 array (after a change of float format, which is the identity
  on extended reals) into a zero accumulator and stores the 5000 x 16 result as the block of the output array. The
  blocks tile the output, so the output array ends as the product of the two arrays the region finds at its entry.
-/
import proofs.«148061_j1898375544951_1_alg».proof.Proof.Gen.KernelIdeal.Frame
import proofs.«148061_j1898375544951_1_alg».proof.Proof.LibDotIx2
import proofs.«148061_j1898375544951_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand4

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain 5000 x 128 by 128 x 16 product. -/
theorem plainDot : PlainDot (M := 5000) (K := 128) (N := 16) dot_S5000x128_S128x16_S5000x16_1_0_0_1_n_n where
  rank := rfl
  size := rfl
  l0 := fun j q => by
    unfold DotDims.lhsIdx
    rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
    rfl
  l1 := fun j q => dot_S5000x128_S128x16_S5000x16_1_0_0_1_n_n.lhsIdx_val_of_single rfl j q
  r0 := fun j q => dot_S5000x128_S128x16_S5000x16_1_0_0_1_n_n.rhsIdx_val_of_single rfl j q
  r1 := fun j q => by
    unfold DotDims.rhsIdx
    rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
    rfl

/-- What the body stores, at row p and column q: the sum over k of the row block's (p, k) times the right array's (k, q). -/
theorem pay_apply (x0 : Vec Ideal S5000x128 .f32) (x1 : Vec Ideal S128x16 .f32) (p : Fin 5000) (q : Fin 16) :
    k4_pay1 x0 x1 (ix2 p q) = ∑ k : Fin 128, x0 (ix2 p k) * x1 (ix2 k q) := by
  unfold k4_pay1
  rw [shapeCast_self]
  exact matmul_zero_ix2_any plainDot none _ _ p q

theorem pay_at (x0 : Vec Ideal S5000x128 .f32) (x1 : Vec Ideal S128x16 .f32) (j : S5000x16.Idx) :
    k4_pay1 x0 x1 j = ∑ k : Fin 128, x0 (ix2 (j 0 : Fin 5000) k) * x1 (ix2 k (j 1 : Fin 16)) := by
  exact (congrArg (k4_pay1 x0 x1) (eq_ix2 j)).trans (pay_apply x0 x1 (j 0) (j 1))

/-- The printed index maps over the grid: the row blocks of the left array and of the output move with the point,
    the right array is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem flushed_eq (c : Dev nD) (t : Fin cfg4.N) :
    (dat4 V c).flushed 2 t = ((cfg4.win 2).blk t).view.read (Elt Ideal)
      (mm (M := 100000) (K := 128) (N := 16) (V c main_v60) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x16) hz]
  obtain ⟨e0, e1, e2, e3, e4, e5⟩ := idx_facts t
  funext j
  refine (pay_at (iblk4 V c 0 t) (iblk4 V c 1 t) j).trans ?_
  rw [View.read_apply]
  unfold mm
  refine Finset.sum_congr rfl fun k _ => ?_
  have hj0 : (j 0).val < 5000 := (j 0).isLt
  have hj1 : (j 1).val < 16 := (j 1).isLt
  have hk : k.val < 128 := k.isLt
  refine congrArg₂ (· * ·) ?_ ?_
  ·
    show V c main_v60 (((cfg4.win 0).blk t).view.emb (ix2 (j 0 : Fin 5000) k)) = _
    refine congrArg (V c main_v60) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  ·
    show V c main_arg7 (((cfg4.win 1).blk t).view.emb (ix2 k (j 1 : Fin 16))) = _
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 16 + 1 * (j 1).val = win4_2.index t (1 : Fin 2) * 16 + 1 * (j 1).val; omega

/-- An index of the output array is in point t's block iff each coordinate is in the block's range on its axis. -/
theorem mem_blk (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v61).slice (win4_2.rect t)).set ↔ _
  rw [View.set_slice_whole, Rect.mem_set_unit]
  exact Iff.rfl

/-- Every row of the output lies in the block of the point numbered by the row divided by 5000. -/
theorem cover (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 20 := N_4
  have ht : (i 0).val / 5000 < cfg4.N := by rw [hN]; omega
  refine ⟨⟨(i 0).val / 5000, ht⟩, flush4_2 _, ?_⟩
  rw [mem_blk]
  obtain ⟨e0, e1, e2, e3, e4, e5⟩ := idx_facts ⟨(i 0).val / 5000, ht⟩
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 16 ≤ (i 1).val ∧ (i 1).val < win4_2.index ⟨(i 0).val / 5000, ht⟩ (1 : Fin 2) * 16 + 16
    rw [e5]; omega

/-- The output array after the region: the product of the two arrays the region finds at its entry. -/
theorem arr_out (c : Dev nD) :
    (dat4 V c).arrAt 2 cfg4.N = mm (M := 100000) (K := 128) (N := 16) (V c main_v60) (V c main_arg7) :=
  (dat4 V c).arrAt_eq_of_cover 2 _ (fun t _ => flushed_eq V c t) cover

end Cert.KernelIdeal.Hand4

end
-- ==== Proof.Region5.lean ====
/-
  Region 5: a row vector added to every row. The 100000 x 16 array is cut into 20 blocks of
  5000 rows; at each block the body adds the 1 x 16 array (broadcast along the rows) to the block and
  stores the result as the block of the output array. The blocks tile the output, so the output array ends as that
  function of the two arrays the region finds at its entry.
-/
import proofs.«148061_j1898375544951_1_alg».proof.Proof.Gen.KernelIdeal.Frame
import proofs.«148061_j1898375544951_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand5

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at row p and column q: the block's entry plus the row array's entry of that column. -/
theorem pay_apply (x0 : Vec Ideal S5000x16 .f32) (x1 : Vec Ideal S1x16 .f32) (p : Fin 5000) (q : Fin 16) :
    k5_pay1 x0 x1 (ix2 p q) = x0 (ix2 p q) + x1 (ix2 (0 : Fin 1) q) := by
  unfold k5_pay1
  rw [shapeCast_self, shapeCast_self]
  have hb : broadcastTo S5000x16 x1 broadcasts_S1x16_S5000x16 (ix2 p q) = x1 (ix2 (0 : Fin 1) q) :=
    broadcastTo_apply x1 broadcasts_S1x16_S5000x16 (ix2 p q) (ix2 (0 : Fin 1) q) (fun a => by
      match a with
      | ⟨0, _⟩ => rfl
      | ⟨1, _⟩ => rfl)
  show x0 (ix2 p q) + broadcastTo S5000x16 x1 broadcasts_S1x16_S5000x16 (ix2 p q) = _
  rw [hb]

theorem pay_at (x0 : Vec Ideal S5000x16 .f32) (x1 : Vec Ideal S1x16 .f32) (j : S5000x16.Idx) :
    k5_pay1 x0 x1 j = x0 j + x1 (ix2 (0 : Fin 1) (j 1 : Fin 16)) := by
  refine (congrArg (k5_pay1 x0 x1) (eq_ix2 j)).trans ((pay_apply x0 x1 (j 0) (j 1)).trans ?_)
  exact congrArg (fun y => x0 y + x1 (ix2 (0 : Fin 1) (j 1 : Fin 16))) (eq_ix2 j).symm

/-- The printed index maps over the grid: the row blocks of the input and of the output move with the point, the row
    array is one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array function of the two arrays as the region finds them. -/
theorem flushed_eq (c : Dev nD) (t : Fin cfg5.N) :
    (dat5 V c).flushed 2 t = ((cfg5.win 2).blk t).view.read (Elt Ideal)
      (addRow1 (M := 100000) (N := 16) (V c main_v74) (V c main_v75)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  obtain ⟨e0, e1, e2, e3, e4, e5⟩ := idx_facts t
  funext j
  refine (pay_at (iblk5 V c 0 t) (iblk5 V c 1 t) j).trans ?_
  rw [View.read_apply]
  unfold addRow1
  have hj0 : (j 0).val < 5000 := (j 0).isLt
  have hj1 : (j 1).val < 16 := (j 1).isLt
  refine congrArg₂ (· + ·) ?_ ?_
  · show V c main_v74 (((cfg5.win 0).blk t).view.emb j) = _
    refine congrArg (V c main_v74) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 16 + 1 * (j 1).val = win5_2.index t (1 : Fin 2) * 16 + 1 * (j 1).val; omega
  · show V c main_v75 (((cfg5.win 1).blk t).view.emb (ix2 (0 : Fin 1) (j 1 : Fin 16))) = _
    refine congrArg (V c main_v75) (funext fun a => Fin.ext ?_)
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega

/-- An index of the output array is in point t's block iff each coordinate is in the block's range on its axis. -/
theorem mem_blk (t : Fin cfg5.N) (i : S100000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v76).slice (win5_2.rect t)).set ↔ _
  rw [View.set_slice_whole, Rect.mem_set_unit]
  exact Iff.rfl

/-- Every row of the output lies in the block of the point numbered by the row divided by 5000. -/
theorem cover (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 20 := N_5
  have ht : (i 0).val / 5000 < cfg5.N := by rw [hN]; omega
  refine ⟨⟨(i 0).val / 5000, ht⟩, flush5_2 _, ?_⟩
  rw [mem_blk]
  obtain ⟨e0, e1, e2, e3, e4, e5⟩ := idx_facts ⟨(i 0).val / 5000, ht⟩
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 16 ≤ (i 1).val ∧ (i 1).val < win5_2.index ⟨(i 0).val / 5000, ht⟩ (1 : Fin 2) * 16 + 16
    rw [e5]; omega

/-- The output array after the region, as one function of the two arrays the region finds at its entry. -/
theorem arr_out (c : Dev nD) :
    (dat5 V c).arrAt 2 cfg5.N = addRow1 (M := 100000) (N := 16) (V c main_v74) (V c main_v75) :=
  (dat5 V c).arrAt_eq_of_cover 2 _ (fun t _ => flushed_eq V c t) cover

end Cert.KernelIdeal.Hand5

end
-- ==== Proof.Region6.lean ====
/-
  Region 6: a row-tiled matrix product plus a row vector. The 100000 x 16 array is cut into 20 blocks of 5000 rows; at
  each block the body multiplies the block by the whole 16 x 16 array (after a change of float format, the identity on
  extended reals) into a zero accumulator, adds the 1 x 16 array to every row, and stores the result as the block of the
  output array. The blocks tile the output, so the output array ends as the product of the two arrays plus the row.
-/
import proofs.«148061_j1898375544951_1_alg».proof.Proof.Gen.KernelIdeal.Frame
import proofs.«148061_j1898375544951_1_alg».proof.Proof.LibDotIx2
import proofs.«148061_j1898375544951_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand6

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain 5000 x 16 by 16 x 16 product. -/
theorem plainDot : PlainDot (M := 5000) (K := 16) (N := 16) dot_S5000x16_S16x16_S5000x16_1_0_0_1_n_n where
  rank := rfl
  size := rfl
  l0 := fun j q => by
    unfold DotDims.lhsIdx
    rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
    rfl
  l1 := fun j q => dot_S5000x16_S16x16_S5000x16_1_0_0_1_n_n.lhsIdx_val_of_single rfl j q
  r0 := fun j q => dot_S5000x16_S16x16_S5000x16_1_0_0_1_n_n.rhsIdx_val_of_single rfl j q
  r1 := fun j q => by
    unfold DotDims.rhsIdx
    rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
    rfl

/-- What the body stores, at row p and column q: the sum over k of the row block's (p, k) times the square array's
    (k, q), plus the row array's entry of column q. -/
theorem pay_apply (x0 : Vec Ideal S5000x16 .f32) (x1 : Vec Ideal S16x16 .f32) (x2 : Vec Ideal S1x16 .f32) (p : Fin 5000) (q : Fin 16) :
    k6_pay1 x0 x1 x2 (ix2 p q) = (∑ k : Fin 16, x0 (ix2 p k) * x1 (ix2 k q)) + x2 (ix2 (0 : Fin 1) q) := by
  unfold k6_pay1
  rw [shapeCast_self, shapeCast_self]
  have hb : broadcastTo S5000x16 x2 broadcasts_S1x16_S5000x16 (ix2 p q) = x2 (ix2 (0 : Fin 1) q) :=
    broadcastTo_apply x2 broadcasts_S1x16_S5000x16 (ix2 p q) (ix2 (0 : Fin 1) q) (fun a => by
      match a with
      | ⟨0, _⟩ => rfl
      | ⟨1, _⟩ => rfl)
  refine congrArg₂ (· + ·) ?_ hb
  exact matmul_zero_ix2_any plainDot none _ _ p q

theorem pay_at (x0 : Vec Ideal S5000x16 .f32) (x1 : Vec Ideal S16x16 .f32) (x2 : Vec Ideal S1x16 .f32) (j : S5000x16.Idx) :
    k6_pay1 x0 x1 x2 j = (∑ k : Fin 16, x0 (ix2 (j 0 : Fin 5000) k) * x1 (ix2 k (j 1 : Fin 16))) + x2 (ix2 (0 : Fin 1) (j 1 : Fin 16)) :=
  (congrArg (k6_pay1 x0 x1 x2) (eq_ix2 j)).trans (pay_apply x0 x1 x2 (j 0) (j 1))

/-- The printed index maps over the grid: the row blocks of the left array and of the output move with the point, the
    square array and the row array are one block each. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the product plus the row, of the arrays as the region finds them. -/
theorem flushed_eq (c : Dev nD) (t : Fin cfg6.N) :
    (dat6 V c).flushed 3 t = ((cfg6.win 3).blk t).view.read (Elt Ideal)
      (addRow1 (M := 100000) (N := 16) (mm (M := 100000) (K := 16) (N := 16) (V c main_v76) (V c main_arg9)) (V c main_v77)) := by
  show (cfg6.win 3).cut (grid6.coords t) ((dat6 V c).after 3 t) = _
  rw [after6_3]
  unfold out6_3
  rw [View.canon_unit_zero hz]
  simp only [View.ld_unit_zero (S := S5000x16) hz, View.ld_unit_zero (S := S16x16) hz, View.ld_unit_zero (S := S1x16) hz]
  obtain ⟨e0, e1, e2, e3, e4, e5, e6, e7⟩ := idx_facts t
  funext j
  refine (pay_at (iblk6 V c 0 t) (iblk6 V c 1 t) (iblk6 V c 2 t) j).trans ?_
  rw [View.read_apply]
  unfold addRow1 mm
  have hj0 : (j 0).val < 5000 := (j 0).isLt
  have hj1 : (j 1).val < 16 := (j 1).isLt
  refine congrArg₂ (· + ·) (Finset.sum_congr rfl fun k _ => ?_) ?_
  · have hk : k.val < 16 := k.isLt
    refine congrArg₂ (· * ·) ?_ ?_
    · show V c main_v76 (((cfg6.win 0).blk t).view.emb (ix2 (j 0 : Fin 5000) k)) = _
      refine congrArg (V c main_v76) (funext fun a => Fin.ext ?_)
      match a with
      | ⟨0, _⟩ => show win6_0.index t (0 : Fin 2) * 5000 + 1 * (j 0).val = win6_3.index t (0 : Fin 2) * 5000 + 1 * (j 0).val; omega
      | ⟨1, _⟩ => show win6_0.index t (1 : Fin 2) * 16 + 1 * k.val = k.val; omega
    · show V c main_arg9 (((cfg6.win 1).blk t).view.emb (ix2 k (j 1 : Fin 16))) = _
      refine congrArg (V c main_arg9) (funext fun a => Fin.ext ?_)
      match a with
      | ⟨0, _⟩ => show win6_1.index t (0 : Fin 2) * 16 + 1 * k.val = k.val; omega
      | ⟨1, _⟩ => show win6_1.index t (1 : Fin 2) * 16 + 1 * (j 1).val = win6_3.index t (1 : Fin 2) * 16 + 1 * (j 1).val; omega
  · show V c main_v77 (((cfg6.win 2).blk t).view.emb (ix2 (0 : Fin 1) (j 1 : Fin 16))) = _
    refine congrArg (V c main_v77) (funext fun a => Fin.ext ?_)
    match a with
    | ⟨0, _⟩ => show win6_2.index t (0 : Fin 2) * 1 + 1 * 0 = 0; omega
    | ⟨1, _⟩ => show win6_2.index t (1 : Fin 2) * 16 + 1 * (j 1).val = win6_3.index t (1 : Fin 2) * 16 + 1 * (j 1).val; omega

/-- An index of the output array is in point t's block iff each coordinate is in the block's range on its axis. -/
theorem mem_blk (t : Fin cfg6.N) (i : S100000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v78).slice (win6_3.rect t)).set ↔ _
  rw [View.set_slice_whole, Rect.mem_set_unit]
  exact Iff.rfl

/-- Every row of the output lies in the block of the point numbered by the row divided by 5000. -/
theorem cover (i : S100000x16.Idx) : ∃ t : Fin cfg6.N, (cfg6.win 3).flush t = true ∧ i ∈ ((cfg6.win 3).blk t).view.set := by
  have hi0 : (i 0).val < 100000 := (i 0).isLt
  have hi1 : (i 1).val < 16 := (i 1).isLt
  have hN : cfg6.N = 20 := N_6
  have ht : (i 0).val / 5000 < cfg6.N := by rw [hN]; omega
  refine ⟨⟨(i 0).val / 5000, ht⟩, flush6_3 _, ?_⟩
  rw [mem_blk]
  obtain ⟨e0, e1, e2, e3, e4, e5, e6, e7⟩ := idx_facts ⟨(i 0).val / 5000, ht⟩
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win6_3.index ⟨(i 0).val / 5000, ht⟩ (1 : Fin 2) * 16 ≤ (i 1).val ∧ (i 1).val < win6_3.index ⟨(i 0).val / 5000, ht⟩ (1 : Fin 2) * 16 + 16
    rw [e7]; omega

/-- The output array after the region: the product of the two arrays the region finds at its entry, plus the row. -/
theorem arr_out (c : Dev nD) :
    (dat6 V c).arrAt 3 cfg6.N = addRow1 (M := 100000) (N := 16) (mm (M := 100000) (K := 16) (N := 16) (V c main_v76) (V c main_arg9)) (V c main_v77) :=
  (dat6 V c).arrAt_eq_of_cover 3 _ (fun t _ => flushed_eq V c t) cover

end Cert.KernelIdeal.Hand6

end
-- ==== Proof.Glue.lean ====
/-
  The host side of a graph-convolution stack, named once. From the 2 x E array of edge endpoints: the source and the
  destination vectors with the N self-loops appended; the column of (wrapped) indices a gather or a scatter takes; the
  inverse square root of the degree (the number of edges arriving at a node, at least one); the weight of an edge
  (the product of that quantity at its two endpoints); and one aggregation: rows of a table gathered at the sources,
  scaled by the edge weights and added into the rows named by the destinations. With these, the whole function: three
  rounds of (product with a weight array, aggregation, a row vector added, and in the first two rounds the maximum with
  zero) and a last product and row vector.
-/
import proofs.«148061_j1898375544951_1_alg».proof.ReferenceIdeal
import proofs.«148061_j1898375544951_1_alg».proof.Proof.Gen.ReferenceIdeal
import proofs.«148061_j1898375544951_1_alg».proof.Proof.Spec
import Idealize.ShloMosaic.PureOps.Ideal

set_option maxRecDepth 16384

noncomputable section

namespace Cert.Gcn

open Cert.ReferenceIdeal Cert.ReferenceIdeal.Gen Idealize.ShloMosaic

abbrev CI (S : Shape) := IVec S 32
abbrev CF (S : Shape) := FVec Ideal S .f32

/-- Row 0 of the endpoint array (the sources) followed by 0, 1, ..., N - 1. -/
def sources (e : CI S2x1600000) : CI S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the endpoint array (the destinations) followed by 0, 1, ..., N - 1. -/
def dests (e : CI S2x1600000) : CI S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector as a column of one-entry index vectors. -/
def col (v : CI S1700000) : CI S1700000x1 := broadcastInDim S1700000x1 ![0] bcast_S1700000_S1700000x1_0 v

/-- The same with a negative index first moved up by N. -/
def wrapCol (v : CI S1700000) : CI S1700000x1 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- One over the square root of a node's degree, the degree counted with the self-loop and taken at least one. -/
def invSqrtDeg (d : CI S1700000) : CF S100000 :=
  Host.rsqrt (F := Ideal) (maximumf (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))) (broadcastInDim S100000 ![] bcast_S_S100000 (constant (F := Ideal) S_ .f32 0x3F800000#32)))

/-- The weight of each edge: that quantity at its source times that quantity at its destination. -/
def edgeWeight (s d : CI S1700000) : CF S1700000 :=
  mulf (Host.gather gather_S100000_S1700000x1_S1700000_n_0_n_n_0_1_1 (invSqrtDeg d) (wrapCol s)) (Host.gather gather_S100000_S1700000x1_S1700000_n_0_n_n_0_1_1 (invSqrtDeg d) (wrapCol d))

/-- One aggregation of a table with 128 columns: its rows at the sources, scaled by the edge weights, added into the rows
    at the destinations, from zero. -/
def aggregate128 (h : CF S100000x128) (s d : CI S1700000) (n : CF S1700000) : CF S100000x128 :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 d) (mulf (Host.gather gather_S100000x128_S1700000x1_S1700000x128_1_0_n_n_0_1_1128 h (wrapCol s)) (broadcastInDim S1700000x128 ![0, 1] bcast_S1700000x1_S1700000x128_0_1 (broadcastInDim S1700000x1 ![0] bcast_S1700000_S1700000x1_0 n)))

/-- The same for a table with 16 columns. -/
def aggregate16 (h : CF S100000x16) (s d : CI S1700000) (n : CF S1700000) : CF S100000x16 :=
  Host.scatterAdd (F := Ideal) scatter_S100000x16_S1700000x1_S1700000x16_1_0_0_1 (broadcastInDim S100000x16 ![] bcast_S_S100000x16 (constant (F := Ideal) S_ .f32 0x00000000#32)) (broadcastInDim S1700000x1 ![0] bcast_S1700000_S1700000x1_0 d) (mulf (Host.gather gather_S100000x16_S1700000x1_S1700000x16_1_0_n_n_0_1_116 h (wrapCol s)) (broadcastInDim S1700000x16 ![0, 1] bcast_S1700000x1_S1700000x16_0_1 (broadcastInDim S1700000x1 ![0] bcast_S1700000_S1700000x1_0 n)))

/-- The whole function over given source and destination vectors and edge weights, in the specification's three dense steps. -/
def gcnOf (x : CF S100000x128) (s d : CI S1700000) (n : CF S1700000) (w1 : CF S128x128) (b1 : CF S128) (w2 : CF S128x128) (b2 : CF S128)
    (w3 : CF S128x16) (b3 : CF S16) (wl : CF S16x16) (bl : CF S16) : CF S100000x16 :=
  addRow (M := 100000) (N := 16) (mm (M := 100000) (K := 16) (N := 16)
    (addRow (M := 100000) (N := 16) (aggregate16 (mm (M := 100000) (K := 128) (N := 16)
      (relu (M := 100000) (N := 128) (addRow (M := 100000) (N := 128) (aggregate128 (mm (M := 100000) (K := 128) (N := 128)
        (relu (M := 100000) (N := 128) (addRow (M := 100000) (N := 128) (aggregate128 (mm (M := 100000) (K := 128) (N := 128) x w1) s d n) b1)) w2) s d n) b2)) w3) s d n) b3) wl) bl

/-- The same in the host operations' own spelling: a dot_general for each product, an add of a twice-broadcast vector
    for each row vector, a maximum with a broadcast zero. -/
def gcnHost (x : CF S100000x128) (s d : CI S1700000) (n : CF S1700000) (w1 : CF S128x128) (b1 : CF S128) (w2 : CF S128x128) (b2 : CF S128)
    (w3 : CF S128x16) (b3 : CF S16) (wl : CF S16x16) (bl : CF S16) : CF S100000x16 :=
  addf (Host.dotGeneral (F := Ideal) dot_S100000x16_S16x16_S100000x16_1_0_0_1_n_n none
    (addf (aggregate16 (Host.dotGeneral (F := Ideal) dot_S100000x128_S128x16_S100000x16_1_0_0_1_n_n none
      (maximumf (addf (aggregate128 (Host.dotGeneral (F := Ideal) dot_S100000x128_S128x128_S100000x128_1_0_0_1_n_n none
        (maximumf (addf (aggregate128 (Host.dotGeneral (F := Ideal) dot_S100000x128_S128x128_S100000x128_1_0_0_1_n_n none x w1) s d n)
          (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32))) w2) s d n)
        (broadcastInDim S100000x128 ![0, 1] bcast_S1x128_S100000x128_0_1 (broadcastInDim S1x128 ![1] bcast_S128_S1x128_1 b2)))
        (broadcastInDim S100000x128 ![] bcast_S_S100000x128 (constant (F := Ideal) S_ .f32 0x00000000#32))) w3) s d n)
      (broadcastInDim S100000x16 ![0, 1] bcast_S1x16_S100000x16_0_1 (broadcastInDim S1x16 ![1] bcast_S16_S1x16_1 b3))) wl)
    (broadcastInDim S100000x16 ![0, 1] bcast_S1x16_S100000x16_0_1 (broadcastInDim S1x16 ![1] bcast_S16_S1x16_1 bl))

/-- The function of the arguments: endpoints to vectors and weights, then the rounds. -/
def gcn (x : CF S100000x128) (e : CI S2x1600000) (w1 : CF S128x128) (b1 : CF S128) (w2 : CF S128x128) (b2 : CF S128)
    (w3 : CF S128x16) (b3 : CF S16) (wl : CF S16x16) (bl : CF S16) : CF S100000x16 :=
  gcnOf x (sources e) (dests e) (edgeWeight (sources e) (dests e)) w1 b1 w2 b2 w3 b3 wl bl

end Cert.Gcn

end
-- ==== Proof.KernelValue.lean ====
/-
  The idealized kernel's result as the whole function of its arguments. The buffer contents at the boundaries between
  the seven launches and the host stretches are a fold from the launch memory. Walking it: a buffer that no host
  operation of a stretch writes and that is no array of a launch keeps its contents across that step; a host stretch's
  results are its operations' composed terms of the contents it starts from (the endpoint vectors, the edge weights, one
  aggregation per round, each row vector re-laid as a 1 x N array); a launch's output array is the dense step of its
  region applied to the arrays it finds. Composed, the result array holds three rounds and the last product.
-/
import proofs.«148061_j1898375544951_1_alg».proof.Proof.Gen.KernelIdeal.Frame
import proofs.«148061_j1898375544951_1_alg».proof.Proof.Region0
import proofs.«148061_j1898375544951_1_alg».proof.Proof.Region1
import proofs.«148061_j1898375544951_1_alg».proof.Proof.Region2
import proofs.«148061_j1898375544951_1_alg».proof.Proof.Region3
import proofs.«148061_j1898375544951_1_alg».proof.Proof.Region4
import proofs.«148061_j1898375544951_1_alg».proof.Proof.Region5
import proofs.«148061_j1898375544951_1_alg».proof.Proof.Region6
import proofs.«148061_j1898375544951_1_alg».proof.Proof.Glue
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- No operation of the stretch writes the buffer: the stretch's writes are singletons of other references. -/
macro "nw" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

abbrev NW (ops : List (HloOp τ sig (Elt Ideal))) (b : Ref sig .tc) : Prop :=
  ∀ op ∈ ops, (Proc.devRef .tc b : DevRef τ sig) ∉ op.writes

/-! ## A buffer nothing writes, followed from the launch memory to each boundary -/

section Kept
variable (b : Ref sig .tc)

theorem k1 (h0 : NW hostOps0 b) : W1 m ρ c (Proc.devRef .tc b) = m ((c : Thread nD τ).loc b) :=
  (StableHlo.after_of_forall_not_mem _ _ h0).trans rfl
theorem k2 (h0 : NW hostOps0 b) (r0 : ∀ w, Pipeline.arrRef spec0 w ≠ b) : W2 m ρ c (Proc.devRef .tc b) = m ((c : Thread nD τ).loc b) :=
  (W2_of_ne m ρ c b r0).trans (k1 m ρ c b h0)
theorem k3 (h0 : NW hostOps0 b) (r0 : ∀ w, Pipeline.arrRef spec0 w ≠ b) (h1 : NW hostOps1 b) : W3 m ρ c (Proc.devRef .tc b) = m ((c : Thread nD τ).loc b) :=
  (StableHlo.after_of_forall_not_mem _ _ h1).trans (k2 m ρ c b h0 r0)
theorem k4 (h0 : NW hostOps0 b) (r0 : ∀ w, Pipeline.arrRef spec0 w ≠ b) (h1 : NW hostOps1 b) (r1 : ∀ w, Pipeline.arrRef spec1 w ≠ b) :
    W4 m ρ c (Proc.devRef .tc b) = m ((c : Thread nD τ).loc b) :=
  (W4_of_ne m ρ c b r1).trans (k3 m ρ c b h0 r0 h1)
theorem k5 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) : W5 m ρ c (Proc.devRef .tc b) = m ((c : Thread nD τ).loc b) :=
  (W5_of_ne m ρ c b r2).trans (k4 m ρ c b h0 r0 h1 r1)
theorem k6 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) : W6 m ρ c (Proc.devRef .tc b) = m ((c : Thread nD τ).loc b) :=
  (StableHlo.after_of_forall_not_mem _ _ h3).trans (k5 m ρ c b h0 r0 h1 r1 r2)
theorem k7 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) (r3 : ∀ w, Pipeline.arrRef spec3 w ≠ b) :
    W7 m ρ c (Proc.devRef .tc b) = m ((c : Thread nD τ).loc b) :=
  (W7_of_ne m ρ c b r3).trans (k6 m ρ c b h0 r0 h1 r1 r2 h3)
theorem k8 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) (r3 : ∀ w, Pipeline.arrRef spec3 w ≠ b) (r4 : ∀ w, Pipeline.arrRef spec4 w ≠ b) :
    W8 m ρ c (Proc.devRef .tc b) = m ((c : Thread nD τ).loc b) :=
  (W8_of_ne m ρ c b r4).trans (k7 m ρ c b h0 r0 h1 r1 r2 h3 r3)
theorem k9 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) (r3 : ∀ w, Pipeline.arrRef spec3 w ≠ b) (r4 : ∀ w, Pipeline.arrRef spec4 w ≠ b)
    (h5 : NW hostOps5 b) : W9 m ρ c (Proc.devRef .tc b) = m ((c : Thread nD τ).loc b) :=
  (StableHlo.after_of_forall_not_mem _ _ h5).trans (k8 m ρ c b h0 r0 h1 r1 r2 h3 r3 r4)
theorem k10 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) (r3 : ∀ w, Pipeline.arrRef spec3 w ≠ b) (r4 : ∀ w, Pipeline.arrRef spec4 w ≠ b)
    (h5 : NW hostOps5 b) (r5 : ∀ w, Pipeline.arrRef spec5 w ≠ b) : W10 m ρ c (Proc.devRef .tc b) = m ((c : Thread nD τ).loc b) :=
  (W10_of_ne m ρ c b r5).trans (k9 m ρ c b h0 r0 h1 r1 r2 h3 r3 r4 h5)
theorem k11 (h0 : NW hostOps0 b) (r0 : ∀ w, Pipeline.arrRef spec0 w ≠ b) (h1 : NW hostOps1 b) (r1 : ∀ w, Pipeline.arrRef spec1 w ≠ b)
    (r2 : ∀ w, Pipeline.arrRef spec2 w ≠ b) (h3 : NW hostOps3 b) (r3 : ∀ w, Pipeline.arrRef spec3 w ≠ b) (r4 : ∀ w, Pipeline.arrRef spec4 w ≠ b)
    (h5 : NW hostOps5 b) (r5 : ∀ w, Pipeline.arrRef spec5 w ≠ b) (h6 : NW hostOps6 b) : W11 m ρ c (Proc.devRef .tc b) = m ((c : Thread nD τ).loc b) :=
  (StableHlo.after_of_forall_not_mem _ _ h6).trans (k10 m ρ c b h0 r0 h1 r1 r2 h3 r3 r4 h5 r5)

/-! A buffer the first stretch computes and nothing later writes, followed from the first launch's entry. -/

theorem j2 (r0 : ∀ w, Pipeline.arrRef spec0 w ≠ b) : W2 m ρ c (Proc.devRef .tc b) = W1 m ρ c (Proc.devRef .tc b) :=
  W2_of_ne m ρ c b r0
theorem j5 (r0 : ∀ w, Pipeline.arrRef spec0 w ≠ b) (h1 : NW hostOps1 b) (r1 : ∀ w, Pipeline.arrRef spec1 w ≠ b) (r2 : ∀ w, Pipeline.arrRef spec2 w ≠ b) :
    W5 m ρ c (Proc.devRef .tc b) = W1 m ρ c (Proc.devRef .tc b) :=
  (W5_of_ne m ρ c b r2).trans ((W4_of_ne m ρ c b r1).trans ((StableHlo.after_of_forall_not_mem _ _ h1).trans (W2_of_ne m ρ c b r0)))
theorem j8 (r0 : ∀ w, Pipeline.arrRef spec0 w ≠ b) (h1 : NW hostOps1 b) (r1 : ∀ w, Pipeline.arrRef spec1 w ≠ b) (r2 : ∀ w, Pipeline.arrRef spec2 w ≠ b)
    (h3 : NW hostOps3 b) (r3 : ∀ w, Pipeline.arrRef spec3 w ≠ b) (r4 : ∀ w, Pipeline.arrRef spec4 w ≠ b) :
    W8 m ρ c (Proc.devRef .tc b) = W1 m ρ c (Proc.devRef .tc b) :=
  (W8_of_ne m ρ c b r4).trans ((W7_of_ne m ρ c b r3).trans ((StableHlo.after_of_forall_not_mem _ _ h3).trans (j5 m ρ c b r0 h1 r1 r2)))

end Kept

/-! ## The arguments where they are read -/

theorem arg0_1 : W1 m ρ c (Proc.devRef .tc main_arg0) = (m ((c : Thread nD τ).loc main_arg0)) := k1 m ρ c main_arg0 (by nw hostOps0)
theorem arg3_1 : W1 m ρ c (Proc.devRef .tc main_arg3) = (m ((c : Thread nD τ).loc main_arg3)) := k1 m ρ c main_arg3 (by nw hostOps0)
theorem arg4_2 : W2 m ρ c (Proc.devRef .tc main_arg4) = (m ((c : Thread nD τ).loc main_arg4)) := k2 m ρ c main_arg4 (by nw hostOps0) (by decide)
theorem arg5_4 : W4 m ρ c (Proc.devRef .tc main_arg5) = (m ((c : Thread nD τ).loc main_arg5)) := k4 m ρ c main_arg5 (by nw hostOps0) (by decide) (by nw hostOps1) (by decide)
theorem arg6_5 : W5 m ρ c (Proc.devRef .tc main_arg6) = (m ((c : Thread nD τ).loc main_arg6)) := k5 m ρ c main_arg6 (by nw hostOps0) (by decide) (by nw hostOps1) (by decide) (by decide)
theorem arg7_7 : W7 m ρ c (Proc.devRef .tc main_arg7) = (m ((c : Thread nD τ).loc main_arg7)) :=
  k7 m ρ c main_arg7 (by nw hostOps0) (by decide) (by nw hostOps1) (by decide) (by decide) (by nw hostOps3) (by decide)
theorem arg8_8 : W8 m ρ c (Proc.devRef .tc main_arg8) = (m ((c : Thread nD τ).loc main_arg8)) :=
  k8 m ρ c main_arg8 (by nw hostOps0) (by decide) (by nw hostOps1) (by decide) (by decide) (by nw hostOps3) (by decide) (by decide)
theorem arg10_10 : W10 m ρ c (Proc.devRef .tc main_arg10) = (m ((c : Thread nD τ).loc main_arg10)) :=
  k10 m ρ c main_arg10 (by nw hostOps0) (by decide) (by nw hostOps1) (by decide) (by decide) (by nw hostOps3) (by decide) (by decide) (by nw hostOps5) (by decide)
theorem arg9_11 : W11 m ρ c (Proc.devRef .tc main_arg9) = (m ((c : Thread nD τ).loc main_arg9)) :=
  k11 m ρ c main_arg9 (by nw hostOps0) (by decide) (by nw hostOps1) (by decide) (by decide) (by nw hostOps3) (by decide) (by decide) (by nw hostOps5) (by decide) (by nw hostOps6)

/-! ## The first stretch: endpoint vectors and edge weights -/

theorem src_1 : W1 m ρ c (Proc.devRef .tc main_v3) = sources (m ((c : Thread nD τ).loc main_arg1)) := by
  show StableHlo.after hostOps0 (W0 m ρ c) (Proc.devRef .tc main_v3) = _
  after_results_simp <;> rfl
theorem dst_1 : W1 m ρ c (Proc.devRef .tc main_v6) = dests (m ((c : Thread nD τ).loc main_arg1)) := by
  show StableHlo.after hostOps0 (W0 m ρ c) (Proc.devRef .tc main_v6) = _
  after_results_simp <;> rfl
theorem wgt_1 : W1 m ρ c (Proc.devRef .tc main_v28) = edgeWeight (sources (m ((c : Thread nD τ).loc main_arg1))) (dests (m ((c : Thread nD τ).loc main_arg1))) := by
  show StableHlo.after hostOps0 (W0 m ρ c) (Proc.devRef .tc main_v28) = _
  after_results_simp <;> rfl

theorem src_2 : W2 m ρ c (Proc.devRef .tc main_v3) = sources (m ((c : Thread nD τ).loc main_arg1)) := (j2 m ρ c main_v3 (by decide)).trans (src_1 m ρ c)
theorem dst_2 : W2 m ρ c (Proc.devRef .tc main_v6) = dests (m ((c : Thread nD τ).loc main_arg1)) := (j2 m ρ c main_v6 (by decide)).trans (dst_1 m ρ c)
theorem wgt_2 : W2 m ρ c (Proc.devRef .tc main_v28) = edgeWeight (sources (m ((c : Thread nD τ).loc main_arg1))) (dests (m ((c : Thread nD τ).loc main_arg1))) := (j2 m ρ c main_v28 (by decide)).trans (wgt_1 m ρ c)
theorem src_5 : W5 m ρ c (Proc.devRef .tc main_v3) = sources (m ((c : Thread nD τ).loc main_arg1)) :=
  (j5 m ρ c main_v3 (by decide) (by nw hostOps1) (by decide) (by decide)).trans (src_1 m ρ c)
theorem dst_5 : W5 m ρ c (Proc.devRef .tc main_v6) = dests (m ((c : Thread nD τ).loc main_arg1)) :=
  (j5 m ρ c main_v6 (by decide) (by nw hostOps1) (by decide) (by decide)).trans (dst_1 m ρ c)
theorem wgt_5 : W5 m ρ c (Proc.devRef .tc main_v28) = edgeWeight (sources (m ((c : Thread nD τ).loc main_arg1))) (dests (m ((c : Thread nD τ).loc main_arg1))) :=
  (j5 m ρ c main_v28 (by decide) (by nw hostOps1) (by decide) (by decide)).trans (wgt_1 m ρ c)
theorem src_8 : W8 m ρ c (Proc.devRef .tc main_v3) = sources (m ((c : Thread nD τ).loc main_arg1)) :=
  (j8 m ρ c main_v3 (by decide) (by nw hostOps1) (by decide) (by decide) (by nw hostOps3) (by decide) (by decide)).trans (src_1 m ρ c)
theorem dst_8 : W8 m ρ c (Proc.devRef .tc main_v6) = dests (m ((c : Thread nD τ).loc main_arg1)) :=
  (j8 m ρ c main_v6 (by decide) (by nw hostOps1) (by decide) (by decide) (by nw hostOps3) (by decide) (by decide)).trans (dst_1 m ρ c)
theorem wgt_8 : W8 m ρ c (Proc.devRef .tc main_v28) = edgeWeight (sources (m ((c : Thread nD τ).loc main_arg1))) (dests (m ((c : Thread nD τ).loc main_arg1))) :=
  (j8 m ρ c main_v28 (by decide) (by nw hostOps1) (by decide) (by decide) (by nw hostOps3) (by decide) (by decide)).trans (wgt_1 m ρ c)

/-! ## A vector re-laid as a 1 x N array reads its entry q at (0, q) -/

theorem row128 (b : CF S128) (q : Fin 128) : shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]
    show q.val = 0 * 128 + q.val
    omega)
theorem row16 (b : CF S16) (q : Fin 16) : shapeCast S1x16 b shapeCasts_S16_S1x16 (ix2 (0 : Fin 1) q) = b (ix1 q) :=
  shapeCast_apply b shapeCasts_S16_S1x16 (ix2 (0 : Fin 1) q) (ix1 q) (by
    rw [Shape.rowMajor_val_one, Shape.rowMajor_val_two]
    show q.val = 0 * 16 + q.val
    omega)

/-! ## The rounds -/

/-- After the first round: the maximum with zero of the aggregated product plus the row vector. -/
def round1 : CF S100000x128 :=
  relu (M := 100000) (N := 128) (addRow (M := 100000) (N := 128) (aggregate128 (mm (M := 100000) (K := 128) (N := 128) (m ((c : Thread nD τ).loc main_arg0)) (m ((c : Thread nD τ).loc main_arg3))) (sources (m ((c : Thread nD τ).loc main_arg1))) (dests (m ((c : Thread nD τ).loc main_arg1))) (edgeWeight (sources (m ((c : Thread nD τ).loc main_arg1))) (dests (m ((c : Thread nD τ).loc main_arg1))))) (m ((c : Thread nD τ).loc main_arg4)))
/-- After the second round. -/
def round2 : CF S100000x128 :=
  relu (M := 100000) (N := 128) (addRow (M := 100000) (N := 128) (aggregate128 (mm (M := 100000) (K := 128) (N := 128) (round1 m c) (m ((c : Thread nD τ).loc main_arg5))) (sources (m ((c : Thread nD τ).loc main_arg1))) (dests (m ((c : Thread nD τ).loc main_arg1))) (edgeWeight (sources (m ((c : Thread nD τ).loc main_arg1))) (dests (m ((c : Thread nD τ).loc main_arg1))))) (m ((c : Thread nD τ).loc main_arg6)))
/-- After the third round (no maximum). -/
def round3 : CF S100000x16 :=
  addRow (M := 100000) (N := 16) (aggregate16 (mm (M := 100000) (K := 128) (N := 16) (round2 m c) (m ((c : Thread nD τ).loc main_arg7))) (sources (m ((c : Thread nD τ).loc main_arg1))) (dests (m ((c : Thread nD τ).loc main_arg1))) (edgeWeight (sources (m ((c : Thread nD τ).loc main_arg1))) (dests (m ((c : Thread nD τ).loc main_arg1))))) (m ((c : Thread nD τ).loc main_arg8))

theorem v29_2 : W2 m ρ c (Proc.devRef .tc main_v29) = mm (M := 100000) (K := 128) (N := 128) (m ((c : Thread nD τ).loc main_arg0)) (m ((c : Thread nD τ).loc main_arg3)) := by
  refine (W2_arr m ρ c 2).trans ((Hand0.arr_out (V1 m ρ) c).trans ?_)
  show mm (M := 100000) (K := 128) (N := 128) (W1 m ρ c (Proc.devRef .tc main_arg0)) (W1 m ρ c (Proc.devRef .tc main_arg3)) = _
  rw [arg0_1, arg3_1]

theorem v42_3 : W3 m ρ c (Proc.devRef .tc main_v42) = aggregate128 (mm (M := 100000) (K := 128) (N := 128) (m ((c : Thread nD τ).loc main_arg0)) (m ((c : Thread nD τ).loc main_arg3))) (sources (m ((c : Thread nD τ).loc main_arg1))) (dests (m ((c : Thread nD τ).loc main_arg1))) (edgeWeight (sources (m ((c : Thread nD τ).loc main_arg1))) (dests (m ((c : Thread nD τ).loc main_arg1)))) := by
  have e : W3 m ρ c (Proc.devRef .tc main_v42) = aggregate128 (W2 m ρ c (Proc.devRef .tc main_v29)) (W2 m ρ c (Proc.devRef .tc main_v3))
      (W2 m ρ c (Proc.devRef .tc main_v6)) (W2 m ρ c (Proc.devRef .tc main_v28)) := by
    show StableHlo.after hostOps1 (W2 m ρ c) (Proc.devRef .tc main_v42) = _
    after_results_simp <;> rfl
  rw [e, v29_2, src_2, dst_2, wgt_2]

theorem v43_3 (q : Fin 128) : (W3 m ρ c (Proc.devRef .tc main_v43) : CF S1x128) (ix2 (0 : Fin 1) q) = ((m ((c : Thread nD τ).loc main_arg4)) : CF S128) (ix1 q) := by
  have e : W3 m ρ c (Proc.devRef .tc main_v43) = shapeCast S1x128 (W2 m ρ c (Proc.devRef .tc main_arg4) : CF S128) shapeCasts_S128_S1x128 := by
    show StableHlo.after hostOps1 (W2 m ρ c) (Proc.devRef .tc main_v43) = _
    after_results_simp <;> rfl
  rw [e, arg4_2]
  exact row128 _ q

theorem v44_4 : W4 m ρ c (Proc.devRef .tc main_v44) = round1 m c := by
  refine (W4_arr m ρ c 2).trans ((Hand1.arr_out (V3 m ρ) c).trans ?_)
  show relu (M := 100000) (N := 128) (addRow1 (M := 100000) (N := 128) (W3 m ρ c (Proc.devRef .tc main_v42)) (W3 m ρ c (Proc.devRef .tc main_v43))) = _
  rw [v42_3, addRow1_eq _ ((m ((c : Thread nD τ).loc main_arg4)) : CF S128) _ (v43_3 m ρ c)]
  rfl

theorem v45_5 : W5 m ρ c (Proc.devRef .tc main_v45) = mm (M := 100000) (K := 128) (N := 128) (round1 m c) (m ((c : Thread nD τ).loc main_arg5)) := by
  refine (W5_arr m ρ c 2).trans ((Hand2.arr_out (V4 m ρ) c).trans ?_)
  show mm (M := 100000) (K := 128) (N := 128) (W4 m ρ c (Proc.devRef .tc main_v44)) (W4 m ρ c (Proc.devRef .tc main_arg5)) = _
  rw [v44_4, arg5_4]

theorem v58_6 : W6 m ρ c (Proc.devRef .tc main_v58) = aggregate128 (mm (M := 100000) (K := 128) (N := 128) (round1 m c) (m ((c : Thread nD τ).loc main_arg5))) (sources (m ((c : Thread nD τ).loc main_arg1))) (dests (m ((c : Thread nD τ).loc main_arg1))) (edgeWeight (sources (m ((c : Thread nD τ).loc main_arg1))) (dests (m ((c : Thread nD τ).loc main_arg1)))) := by
  have e : W6 m ρ c (Proc.devRef .tc main_v58) = aggregate128 (W5 m ρ c (Proc.devRef .tc main_v45)) (W5 m ρ c (Proc.devRef .tc main_v3))
      (W5 m ρ c (Proc.devRef .tc main_v6)) (W5 m ρ c (Proc.devRef .tc main_v28)) := by
    show StableHlo.after hostOps3 (W5 m ρ c) (Proc.devRef .tc main_v58) = _
    after_results_simp <;> rfl
  rw [e, v45_5, src_5, dst_5, wgt_5]

theorem v59_6 (q : Fin 128) : (W6 m ρ c (Proc.devRef .tc main_v59) : CF S1x128) (ix2 (0 : Fin 1) q) = ((m ((c : Thread nD τ).loc main_arg6)) : CF S128) (ix1 q) := by
  have e : W6 m ρ c (Proc.devRef .tc main_v59) = shapeCast S1x128 (W5 m ρ c (Proc.devRef .tc main_arg6) : CF S128) shapeCasts_S128_S1x128 := by
    show StableHlo.after hostOps3 (W5 m ρ c) (Proc.devRef .tc main_v59) = _
    after_results_simp <;> rfl
  rw [e, arg6_5]
  exact row128 _ q

theorem v60_7 : W7 m ρ c (Proc.devRef .tc main_v60) = round2 m c := by
  refine (W7_arr m ρ c 2).trans ((Hand3.arr_out (V6 m ρ) c).trans ?_)
  show relu (M := 100000) (N := 128) (addRow1 (M := 100000) (N := 128) (W6 m ρ c (Proc.devRef .tc main_v58)) (W6 m ρ c (Proc.devRef .tc main_v59))) = _
  rw [v58_6, addRow1_eq _ ((m ((c : Thread nD τ).loc main_arg6)) : CF S128) _ (v59_6 m ρ c)]
  rfl

theorem v61_8 : W8 m ρ c (Proc.devRef .tc main_v61) = mm (M := 100000) (K := 128) (N := 16) (round2 m c) (m ((c : Thread nD τ).loc main_arg7)) := by
  refine (W8_arr m ρ c 2).trans ((Hand4.arr_out (V7 m ρ) c).trans ?_)
  show mm (M := 100000) (K := 128) (N := 16) (W7 m ρ c (Proc.devRef .tc main_v60)) (W7 m ρ c (Proc.devRef .tc main_arg7)) = _
  rw [v60_7, arg7_7]

theorem v74_9 : W9 m ρ c (Proc.devRef .tc main_v74) = aggregate16 (mm (M := 100000) (K := 128) (N := 16) (round2 m c) (m ((c : Thread nD τ).loc main_arg7))) (sources (m ((c : Thread nD τ).loc main_arg1))) (dests (m ((c : Thread nD τ).loc main_arg1))) (edgeWeight (sources (m ((c : Thread nD τ).loc main_arg1))) (dests (m ((c : Thread nD τ).loc main_arg1)))) := by
  have e : W9 m ρ c (Proc.devRef .tc main_v74) = aggregate16 (W8 m ρ c (Proc.devRef .tc main_v61)) (W8 m ρ c (Proc.devRef .tc main_v3))
      (W8 m ρ c (Proc.devRef .tc main_v6)) (W8 m ρ c (Proc.devRef .tc main_v28)) := by
    show StableHlo.after hostOps5 (W8 m ρ c) (Proc.devRef .tc main_v74) = _
    after_results_simp <;> rfl
  rw [e, v61_8, src_8, dst_8, wgt_8]

theorem v75_9 (q : Fin 16) : (W9 m ρ c (Proc.devRef .tc main_v75) : CF S1x16) (ix2 (0 : Fin 1) q) = ((m ((c : Thread nD τ).loc main_arg8)) : CF S16) (ix1 q) := by
  have e : W9 m ρ c (Proc.devRef .tc main_v75) = shapeCast S1x16 (W8 m ρ c (Proc.devRef .tc main_arg8) : CF S16) shapeCasts_S16_S1x16 := by
    show StableHlo.after hostOps5 (W8 m ρ c) (Proc.devRef .tc main_v75) = _
    after_results_simp <;> rfl
  rw [e, arg8_8]
  exact row16 _ q

theorem v76_10 : W10 m ρ c (Proc.devRef .tc main_v76) = round3 m c := by
  refine (W10_arr m ρ c 2).trans ((Hand5.arr_out (V9 m ρ) c).trans ?_)
  show addRow1 (M := 100000) (N := 16) (W9 m ρ c (Proc.devRef .tc main_v74)) (W9 m ρ c (Proc.devRef .tc main_v75)) = _
  rw [v74_9, addRow1_eq _ ((m ((c : Thread nD τ).loc main_arg8)) : CF S16) _ (v75_9 m ρ c)]
  rfl

theorem v76_11 : W11 m ρ c (Proc.devRef .tc main_v76) = round3 m c :=
  (StableHlo.after_of_forall_not_mem _ _ (by nw hostOps6)).trans (v76_10 m ρ c)

theorem v77_11 (q : Fin 16) : (W11 m ρ c (Proc.devRef .tc main_v77) : CF S1x16) (ix2 (0 : Fin 1) q) = ((m ((c : Thread nD τ).loc main_arg10)) : CF S16) (ix1 q) := by
  have e : W11 m ρ c (Proc.devRef .tc main_v77) = shapeCast S1x16 (W10 m ρ c (Proc.devRef .tc main_arg10) : CF S16) shapeCasts_S16_S1x16 := by
    show StableHlo.after hostOps6 (W10 m ρ c) (Proc.devRef .tc main_v77) = _
    after_results_simp <;> rfl
  rw [e, arg10_10]
  exact row16 _ q

/-- The result array at the last boundary is the whole function of the arguments. -/
theorem result_eq : W12 m ρ c (Proc.devRef .tc main_v78) = gcn (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ((Hand6.arr_out (V11 m ρ) c).trans ?_)
  show addRow1 (M := 100000) (N := 16) (mm (M := 100000) (K := 16) (N := 16) (W11 m ρ c (Proc.devRef .tc main_v76)) (W11 m ρ c (Proc.devRef .tc main_arg9)))
    (W11 m ρ c (Proc.devRef .tc main_v77)) = _
  rw [v76_11, arg9_11, addRow1_eq _ ((m ((c : Thread nD τ).loc main_arg10)) : CF S16) _ (v77_11 m ρ c)]
  rfl

end Cert.KernelIdeal.HandValue

end
-- ==== Proof.RefValue.lean ====
/-
  The reference's run read back. Its result term is the host spelling of the whole function; at the extended reals
  each dot_general is the product of the specification, each add of a twice-broadcast vector is the vector added to
  every row, and each maximum with a broadcast zero is the maximum of every entry with zero.
-/
import proofs.«148061_j1898375544951_1_alg».proof.Proof.Gen.ReferenceIdeal.Run
import proofs.«148061_j1898375544951_1_alg».proof.Proof.Glue
import proofs.«148061_j1898375544951_1_alg».proof.Proof.LibDotIx2
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value Cert.Gcn
open Idealize.ShloMosaic Idealize.ShloMosaic.TcCoe Idealize.SL.Sem Idealize.ShloMosaic.ValueIdx

/-- The dimension numbers of the 100000 x 128 by 128 x 128 dot_general are those of a plain product. -/
theorem plain_128_128 : PlainDot (M := 100000) (K := 128) (N := 128) dot_S100000x128_S128x128_S100000x128_1_0_0_1_n_n where
  rank := rfl
  size := rfl
  l0 := fun j q => by
    unfold DotDims.lhsIdx
    rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
    rfl
  l1 := fun j q => dot_S100000x128_S128x128_S100000x128_1_0_0_1_n_n.lhsIdx_val_of_single rfl j q
  r0 := fun j q => dot_S100000x128_S128x128_S100000x128_1_0_0_1_n_n.rhsIdx_val_of_single rfl j q
  r1 := fun j q => by
    unfold DotDims.rhsIdx
    rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
    rfl

/-- The dimension numbers of the 100000 x 128 by 128 x 16 dot_general are those of a plain product. -/
theorem plain_128_16 : PlainDot (M := 100000) (K := 128) (N := 16) dot_S100000x128_S128x16_S100000x16_1_0_0_1_n_n where
  rank := rfl
  size := rfl
  l0 := fun j q => by
    unfold DotDims.lhsIdx
    rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
    rfl
  l1 := fun j q => dot_S100000x128_S128x16_S100000x16_1_0_0_1_n_n.lhsIdx_val_of_single rfl j q
  r0 := fun j q => dot_S100000x128_S128x16_S100000x16_1_0_0_1_n_n.rhsIdx_val_of_single rfl j q
  r1 := fun j q => by
    unfold DotDims.rhsIdx
    rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
    rfl

/-- The dimension numbers of the 100000 x 16 by 16 x 16 dot_general are those of a plain product. -/
theorem plain_16_16 : PlainDot (M := 100000) (K := 16) (N := 16) dot_S100000x16_S16x16_S100000x16_1_0_0_1_n_n where
  rank := rfl
  size := rfl
  l0 := fun j q => by
    unfold DotDims.lhsIdx
    rw [dif_neg (show ¬(0 : Fin S100000x16.rank) ∈ dot_S100000x16_S16x16_S100000x16_1_0_0_1_n_n.lhsBatch by decide), dif_pos (show (0 : Fin S100000x16.rank) ∈ dot_S100000x16_S16x16_S100000x16_1_0_0_1_n_n.lhsNonContracting by decide)]
    rfl
  l1 := fun j q => dot_S100000x16_S16x16_S100000x16_1_0_0_1_n_n.lhsIdx_val_of_single rfl j q
  r0 := fun j q => dot_S100000x16_S16x16_S100000x16_1_0_0_1_n_n.rhsIdx_val_of_single rfl j q
  r1 := fun j q => by
    unfold DotDims.rhsIdx
    rw [dif_neg (show ¬(1 : Fin S16x16.rank) ∈ dot_S100000x16_S16x16_S100000x16_1_0_0_1_n_n.rhsBatch by decide), dif_pos (show (1 : Fin S16x16.rank) ∈ dot_S100000x16_S16x16_S100000x16_1_0_0_1_n_n.rhsNonContracting by decide)]
    rfl

/-- The host's dot_general of a 100000 x 128 array with a 128 x 128 array is their product. -/
theorem dot_128_128 (x : CF S100000x128) (w : CF S128x128) :
    Host.dotGeneral (F := Ideal) dot_S100000x128_S128x128_S100000x128_1_0_0_1_n_n none x w = mm (M := 100000) (K := 128) (N := 128) x w := by
  funext i
  exact (congrArg (Host.dotGeneral (F := Ideal) dot_S100000x128_S128x128_S100000x128_1_0_0_1_n_n none x w) (eq_ix2 i)).trans
    (dotGeneral_ix2_any plain_128_128 none .single x w (i 0) (i 1))

/-- The host's dot_general of a 100000 x 128 array with a 128 x 16 array is their product. -/
theorem dot_128_16 (x : CF S100000x128) (w : CF S128x16) :
    Host.dotGeneral (F := Ideal) dot_S100000x128_S128x16_S100000x16_1_0_0_1_n_n none x w = mm (M := 100000) (K := 128) (N := 16) x w := by
  funext i
  exact (congrArg (Host.dotGeneral (F := Ideal) dot_S100000x128_S128x16_S100000x16_1_0_0_1_n_n none x w) (eq_ix2 i)).trans
    (dotGeneral_ix2_any plain_128_16 none .single x w (i 0) (i 1))

/-- The host's dot_general of a 100000 x 16 array with a 16 x 16 array is their product. -/
theorem dot_16_16 (x : CF S100000x16) (w : CF S16x16) :
    Host.dotGeneral (F := Ideal) dot_S100000x16_S16x16_S100000x16_1_0_0_1_n_n none x w = mm (M := 100000) (K := 16) (N := 16) x w := by
  funext i
  exact (congrArg (Host.dotGeneral (F := Ideal) dot_S100000x16_S16x16_S100000x16_1_0_0_1_n_n none x w) (eq_ix2 i)).trans
    (dotGeneral_ix2_any plain_16_16 none .single x w (i 0) (i 1))

/-- Adding a 128-vector broadcast first to a 1 x 128 array and then along the rows is adding it to every row. -/
theorem addRow_128 (X : CF S100000x128) (b : CF S128) :
    addf X (broadcastInDim S100000x128 ![0, 1] bcast_S1x128_S100000x128_0_1 (broadcastInDim S1x128 ![1] bcast_S128_S1x128_1 b)) = addRow (M := 100000) (N := 128) X b := by
  funext i
  refine congrArg (fun z => X i + z) ?_
  refine (broadcastInDim_apply ![0, 1] bcast_S1x128_S100000x128_0_1 _ i (ix2 (0 : Fin 1) (i 1 : Fin 128)) (fun a => by
    match a with
    | ⟨0, _⟩ => rfl
    | ⟨1, _⟩ => rfl)).trans ?_
  exact broadcastInDim_apply ![1] bcast_S128_S1x128_1 b (ix2 (0 : Fin 1) (i 1 : Fin 128)) (ix1 (i 1 : Fin 128)) (fun a => by
    match a with
    | ⟨0, _⟩ => rfl)

/-- Adding a 16-vector broadcast first to a 1 x 16 array and then along the rows is adding it to every row. -/
theorem addRow_16 (X : CF S100000x16) (b : CF S16) :
    addf X (broadcastInDim S100000x16 ![0, 1] bcast_S1x16_S100000x16_0_1 (broadcastInDim S1x16 ![1] bcast_S16_S1x16_1 b)) = addRow (M := 100000) (N := 16) X b := by
  funext i
  refine congrArg (fun z => X i + z) ?_
  refine (broadcastInDim_apply ![0, 1] bcast_S1x16_S100000x16_0_1 _ i (ix2 (0 : Fin 1) (i 1 : Fin 16)) (fun a => by
    match a with
    | ⟨0, _⟩ => rfl
    | ⟨1, _⟩ => rfl)).trans ?_
  exact broadcastInDim_apply ![1] bcast_S16_S1x16_1 b (ix2 (0 : Fin 1) (i 1 : Fin 16)) (ix1 (i 1 : Fin 16)) (fun a => by
    match a with
    | ⟨0, _⟩ => rfl)

/-- The maximum with a broadcast zero is the maximum of every entry with zero. -/
theorem relu_128 (X : CF S100000x128) :
    maximumf X (broadcastInDim S100000x128 ![] bcast_S_S100000x128 (constant (F := Ideal) S_ .f32 0x00000000#32)) = relu (M := 100000) (N := 128) X := by
  funext i
  refine congrArg (fun z => max (X i) z) ?_
  exact broadcastInDim_apply ![] bcast_S_S100000x128 (constant (F := Ideal) S_ .f32 0x00000000#32) i ix0 (fun a => a.elim0)

/-- The host spelling and the specification's are one function. -/
theorem gcnHost_eq (x : CF S100000x128) (s d : CI S1700000) (n : CF S1700000) (w1 : CF S128x128) (b1 : CF S128) (w2 : CF S128x128) (b2 : CF S128)
    (w3 : CF S128x16) (b3 : CF S16) (wl : CF S16x16) (bl : CF S16) :
    gcnHost x s d n w1 b1 w2 b2 w3 b3 wl bl = gcnOf x s d n w1 b1 w2 b2 w3 b3 wl bl := by
  unfold gcnHost gcnOf
  simp only [dot_128_128, dot_128_16, dot_16_16]
  rw [addRow_128, relu_128, addRow_128, relu_128, addRow_16, addRow_16]

/-- The reference run's result is the whole function of the arguments. -/
theorem res_eq (m : (ℓ : Loc nD τ sig) → Buf (Elt Ideal) ℓ) (c : Dev nD) :
    res_main_v85 (F := Ideal) m c = gcn (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
  have h : res_main_v85 (F := Ideal) m c = gcnHost (m ((c.tc : Thread nD τ).loc main_arg0))
      (sources (m ((c.tc : Thread nD τ).loc main_arg1))) (dests (m ((c.tc : Thread nD τ).loc main_arg1)))
      (edgeWeight (sources (m ((c.tc : Thread nD τ).loc main_arg1))) (dests (m ((c.tc : Thread nD τ).loc main_arg1))))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
    unfold res_main_v85
    rfl
  rw [h, gcnHost_eq]
  rfl

end Cert.ReferenceIdeal.RefValue

end
-- ==== Proof.lean ====
/-
  A three-round graph convolution followed by a 16 x 16 linear map, computed two ways, gives one function on the
  extended reals.

  Both programs form, from the 2 x E endpoint array, the source and destination vectors with the N self-loops appended,
  the inverse square root of each node's degree, and each edge's weight; and in each round they multiply the node table
  by a weight array, gather its rows at the sources, scale them by the edge weights, add them into the rows at the
  destinations, add a row vector, and (in the first two rounds) take the maximum with zero. The reference does the dense
  steps by host operations. The kernel does each of them by a launch over 20 blocks of 5000 rows: a block times the
  whole weight array into a zero accumulator (the change of float format before the product is the identity on
  extended reals), or a block plus the broadcast row (and the maximum), stored as the block of the output; the blocks
  tile the output array, so each launch leaves the whole-array dense step of the arrays it finds. A product accumulated
  block by block and a host dot_general are the same finite sum over the inner index; the gathers, scatters and index
  arithmetic between the launches are the same operations in both programs. Nothing is reordered across an infinity,
  so finiteness of the inputs is not used.
-/
import proofs.«148061_j1898375544951_1_alg».proof.Defs
import proofs.«148061_j1898375544951_1_alg».proof.Proof.Gen.Kernel
import proofs.«148061_j1898375544951_1_alg».proof.Proof.Gen.Kernel.Skeleton
import proofs.«148061_j1898375544951_1_alg».proof.Proof.Gen.Kernel.Launch
import proofs.«148061_j1898375544951_1_alg».proof.Proof.Gen.Kernel.Points
import proofs.«148061_j1898375544951_1_alg».proof.Proof.Gen.Kernel.Frame
import proofs.«148061_j1898375544951_1_alg».proof.Proof.Gen.KernelIdeal
import proofs.«148061_j1898375544951_1_alg».proof.Proof.Gen.KernelIdeal.Skeleton
import proofs.«148061_j1898375544951_1_alg».proof.Proof.Gen.KernelIdeal.Launch
import proofs.«148061_j1898375544951_1_alg».proof.Proof.Gen.KernelIdeal.Points
import proofs.«148061_j1898375544951_1_alg».proof.Proof.Gen.KernelIdeal.Frame
import proofs.«148061_j1898375544951_1_alg».proof.Proof.Gen.ReferenceIdeal
import proofs.«148061_j1898375544951_1_alg».proof.Proof.Gen.ReferenceIdeal.Run
import proofs.«148061_j1898375544951_1_alg».proof.Proof.Gen.Pre_finite_inputs
import proofs.«148061_j1898375544951_1_alg».proof.Proof.KernelRun
import proofs.«148061_j1898375544951_1_alg».proof.Proof.KernelValue
import proofs.«148061_j1898375544951_1_alg».proof.Proof.RefValue
import Idealize.ShloMosaic.Adequacy
import Idealize.ShloMosaic.Init

noncomputable section

namespace Cert.Proof

open Idealize.ShloMosaic Idealize.SL.Sem

/-- The word-level kernel runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the result array at the whole function of the
    arguments: the kernel's by its launches' dense steps composed through the host stretches, the reference's by its run's
    term, in which each host dense step is the same function. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HandValue.result_eq m ρ c), (h c).2⟩)
      (Cert.KernelIdeal.HandRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.res_eq, e0, e1, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
